-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : FVec F S10000x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S10000x512 : Shape := ⟨2, ![10000, 512]⟩
abbrev S4096 : Shape := ⟨1, ![4096]⟩
abbrev S_ : Shape := ⟨0, ![]⟩
abbrev S4096x1 : Shape := ⟨2, ![4096, 1]⟩
abbrev S10000 : Shape := ⟨1, ![10000]⟩
abbrev S10000x1 : Shape := ⟨2, ![10000, 1]⟩
abbrev S8x1x128 : Shape := ⟨3, ![8, 1, 128]⟩
abbrev S512x512 : Shape := ⟨2, ![512, 512]⟩
abbrev S2000x512 : Shape := ⟨2, ![2000, 512]⟩
abbrev S512x1 : Shape := ⟨2, ![512, 1]⟩
abbrev S1x1x128 : Shape := ⟨3, ![1, 1, 128]⟩
abbrev S1x1 : Shape := ⟨2, ![1, 1]⟩
abbrev S512x2000 : Shape := ⟨2, ![512, 2000]⟩
abbrev S512 : Shape := ⟨1, ![512]⟩
abbrev S1 : Shape := ⟨1, ![1]⟩
abbrev S1x128 : Shape := ⟨2, ![1, 128]⟩

abbrev nBuf : Space → Nat
  | .hbm => 25
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x512, .f32⟩
  | .hbm, ⟨9, _⟩ => ⟨S4096x512, .f32⟩
  | .hbm, ⟨10, _⟩ => ⟨S10000x512, .f32⟩
  | .hbm, ⟨11, _⟩ => ⟨S_, .f32⟩
  | .hbm, ⟨12, _⟩ => ⟨S10000, .f32⟩
  | .hbm, ⟨13, _⟩ => ⟨S10000x1, .f32⟩
  | .hbm, ⟨14, _⟩ => ⟨S10000x1, .f32⟩
  | .hbm, ⟨15, _⟩ => ⟨S10000x512, .f32⟩
  | .hbm, ⟨16, _⟩ => ⟨S10000x512, .f32⟩
  | .hbm, ⟨17, _⟩ => ⟨S4096x512, .bf16⟩
  | .hbm, ⟨18, _⟩ => ⟨S10000x512, .bf16⟩
  | .hbm, ⟨19, _⟩ => ⟨S4096x1, .i32⟩
  | .hbm, ⟨20, _⟩ => ⟨S8x1x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2000x512, .bf16⟩
  | .local _ .vmem, ⟨3, _⟩ => ⟨S2000x512, .bf16⟩
  | .local _ .vmem, ⟨4, _⟩ => ⟨S512x1, .i32⟩
  | .local _ .vmem, ⟨5, _⟩ => ⟨S512x1, .i32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v35 : BitVec 1 := Scalar.cmpi .eq arg1 c4_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  reducesTo_S10000x512_S10000_d1 : S10000x512.ReducesTo [1] S10000
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bitsLt_bf16_f32 : FTy.bits .bf16 < FTy.bits .f32
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  transposes_S2000x512_p1_0_S512x2000 : S2000x512.Transposes [1, 0] S512x2000
  iota_S512x2000_d1_w32 : S512x2000.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2000 : S512x1.Broadcasts S512x2000
  natLt_1_32 : 1 < 32
  reduces_S512x2000_S512 : S512x2000.Reduces [1] S512
  shapeCasts_S512_S512x1 : S512.ShapeCasts S512x1
  reduces_S512x1_S1 : S512x1.Reduces [0] S1
  shapeCasts_S1_S1x1 : S1.ShapeCasts S1x1
  iota_S1x128_d1_w32 : S1x128.Iotas .tc 32 [1]
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S8x1x128_S_d0_1_2 : S8x1x128.ReducesTo [0, 1, 2] S_
  dot_S512x512_S512x2000_S512x2000_1_0_0_1_n_n_wf : DotDims.WF S512x512 S512x2000 S512x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .bf16 = 32 ∨ (Rect.block (s := S10000x512) S2000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def dot_S512x512_S512x2000_S512x2000_1_0_0_1_n_n : DotDims S512x512 S512x2000 S512x2000 where
  lhsContracting := [1]
  rhsContracting := [0]
  lhsNonContracting := [0]
  rhsNonContracting := [1]
  lhsBatch := []
  rhsBatch := []
  wf := dot_S512x512_S512x2000_S512x2000_1_0_0_1_n_n_wf

abbrev win0_0 : Pipeline.Window sig grid0 :=
  Pipeline.Window.ofSpec (Memref.whole main_v6) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S10000x512 : Shape := ⟨2, ![10000, 512]⟩
abbrev S4096 : Shape := ⟨1, ![4096]⟩
abbrev S_ : Shape := ⟨0, ![]⟩
abbrev S4096x1 : Shape := ⟨2, ![4096, 1]⟩
abbrev S10000 : Shape := ⟨1, ![10000]⟩
abbrev S10000x1 : Shape := ⟨2, ![10000, 1]⟩
abbrev S4096x10000 : Shape := ⟨2, ![4096, 10000]⟩
abbrev S1x10000 : Shape := ⟨2, ![1, 10000]⟩

abbrev nBuf : Space → Nat
  | .hbm => 41
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x512, .f32⟩
  | .hbm, ⟨9, _⟩ => ⟨S4096x512, .f32⟩
  | .hbm, ⟨10, _⟩ => ⟨S10000x512, .f32⟩
  | .hbm, ⟨11, _⟩ => ⟨S_, .f32⟩
  | .hbm, ⟨12, _⟩ => ⟨S10000, .f32⟩
  | .hbm, ⟨13, _⟩ => ⟨S10000x1, .f32⟩
  | .hbm, ⟨14, _⟩ => ⟨S10000x1, .f32⟩
  | .hbm, ⟨15, _⟩ => ⟨S10000x512, .f32⟩
  | .hbm, ⟨16, _⟩ => ⟨S10000x512, .f32⟩
  | .hbm, ⟨17, _⟩ => ⟨S4096x10000, .f32⟩
  | .hbm, ⟨18, _⟩ => ⟨S_, .f32⟩
  | .hbm, ⟨19, _⟩ => ⟨S4096x10000, .f32⟩
  | .hbm, ⟨20, _⟩ => ⟨S4096x10000, .f32⟩
  | .hbm, ⟨21, _⟩ => ⟨S10000, .i32⟩
  | .hbm, ⟨22, _⟩ => ⟨S4096x1, .i32⟩
  | .hbm, ⟨23, _⟩ => ⟨S1x10000, .i32⟩
  | .hbm, ⟨24, _⟩ => ⟨S4096x10000, .i32⟩
  | .hbm, ⟨25, _⟩ => ⟨S4096x10000, .i32⟩
  | .hbm, ⟨26, _⟩ => ⟨S4096x10000, .i1⟩
  | .hbm, ⟨27, _⟩ => ⟨S4096x10000, .f32⟩
  | .hbm, ⟨28, _⟩ => ⟨S4096x10000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x10000, .f32⟩
  | .hbm, ⟨33, _⟩ => ⟨S4096x10000, .f32⟩
  | .hbm, ⟨34, _⟩ => ⟨S_, .f32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_cst_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  reducesTo_S10000x512_S10000_d1 : S10000x512.ReducesTo [1] S10000
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S4096x10000 : S_.BroadcastsInDim S4096x10000 (![] : Fin 0 → Fin S4096x10000.rank)
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  reducesTo_S4096x10000_S_d0_1 : S4096x10000.ReducesTo [0, 1] S_
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.Spec.lean ====
/-
  The specification both programs are proved to compute, at the extended reals.

  For feature rows x_b (b < 4096) and class centres y_c (c < 10000), each already divided by its Euclidean norm, and a
  target class t_b per row, the loss's numerator is

      ∑_b ∑_c  min HI (max LO ((1 - ∑_k x_b,k · y_c,k) · [t_b = c]))

  the cosine distance of row b to centre c, kept only where c is the row's target class (and replaced by 0
  elsewhere), then clipped into [LO, HI]. LO, HI and 1 are kept as the float words the programs spell them with:
  the same word stands on both sides, so what real number it denotes is never needed.
-/
import Idealize.ShloMosaic.PureOps.Ideal.Laws
import Idealize.ShloMosaic.Lib.ValueIdx

noncomputable section

namespace Cert.CenterLoss

open Idealize.ShloMosaic Idealize.ShloMosaic.ValueIdx

/-- The normalized features, the normalized centres and the targets, as arrays. -/
abbrev SX : Shape := ⟨2, ![4096, 512]⟩
abbrev SY : Shape := ⟨2, ![10000, 512]⟩
abbrev ST : Shape := ⟨1, ![4096]⟩

/-- 1 where the row's target word is the class's number, 0 elsewhere. -/
def hit (w : BitVec 32) (cc : ℕ) : EReal := if w = BitVec.ofNat 32 cc then 1 else 0

/-- The summand at row `b` and class `cc`: the masked cosine distance, clipped. -/
def term (xn : SX.Idx → EReal) (yn : SY.Idx → EReal) (tg : ST.Idx → BitVec 32) (b : Fin 4096) (cc : Fin 10000) : EReal :=
  min (Ideal.ofBits .f32 0x5368D4A5#32)
    (max (Ideal.ofBits .f32 0x2B8CBCCC#32)
      ((Ideal.ofBits .f32 0x3F800000#32 - ∑ k : Fin 512, xn (ix2 b k) * yn (ix2 cc k)) * hit (tg (ix1 b)) cc.val))

/-- The sum of the summands over every row and every class. -/
def total (xn : SX.Idx → EReal) (yn : SY.Idx → EReal) (tg : ST.Idx → BitVec 32) : EReal :=
  ∑ b : Fin 4096, ∑ cc : Fin 10000, term xn yn tg b cc

end Cert.CenterLoss

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.Payloads.lean ====
/-
  The two values the kernel's body stores, read at an index, on the extended reals.

  The partial-sum payload: for a block of 512 feature rows x, a block of 2000 class centres y, the rows' target words t
  and the running value s, it is s plus the sum over the 512 rows r and the 2000 columns q of

      min HI (max LO ((1 - ∑_k x_r,k · y_q,k) · [t_r = 2000·g + q]))

  where g is the second grid coordinate: the product of the row block with the transposed centre block is the inner
  product of row r with centre q; the column's class number is 2000·g + q as a 32-bit word; the comparison, widened and
  converted, is 1 where the words agree and 0 elsewhere; the sum over the columns of a row, then over the rows, is the
  double sum. HI, LO and 1 stay the float words the program spells.

  The output payload: the 1×1 value placed in lane 0 of a row of 128 lanes, the zero word in every other lane.
-/
import proofs.«170992_j67783173866135_1_alg».proof.Proof.Gen.KernelIdeal.Skeleton
import proofs.«170992_j67783173866135_1_alg».proof.Proof.Spec
import proofs.«170992_j67783173866135_1_alg».proof.Proof.LibKeepdims
import proofs.«170992_j67783173866135_1_alg».proof.Proof.LibKeepdimsCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-! ## Words -/

/-- The column's class number as a word: 2000·n + q, computed in 32-bit words, is the word of the number n·2000 + q
    (the word of a sum or product of numbers is the sum or product of their words). -/
theorem colword (n q : ℕ) :
    IntOp.addi (Scalar.muli (BitVec.ofNat 32 n) 2000#32) (BitVec.ofNat 32 q) = BitVec.ofNat 32 (n * 2000 + q) := by
  show BitVec.ofNat 32 n * BitVec.ofNat 32 2000 + BitVec.ofNat 32 q = _
  rw [BitVec.ofNat_add, BitVec.ofNat_mul]

/-- The one-bit equality of a word with the word of m, widened to 32 bits and read as a signed integer, is the real
    number 1 where the words agree and 0 elsewhere. -/
theorem mask_word (a : BitVec 32) (m : ℕ) :
    FloatOps.sitofp (F := Ideal) .f32 ((IntOp.cmpi .eq a (BitVec.ofNat 32 m)).setWidth 32) = Cert.CenterLoss.hit a m := by
  unfold Cert.CenterLoss.hit IntOp.cmpi
  show (((((BitVec.ofBool (a == BitVec.ofNat 32 m)).setWidth 32).toInt : ℤ) : ℝ) : EReal) = _
  by_cases h : a = BitVec.ofNat 32 m
  · rw [if_pos h, beq_iff_eq.mpr h]
    have e : ((BitVec.ofBool true).setWidth 32).toInt = 1 := by decide
    rw [e, Int.cast_one, EReal.coe_one]
  · rw [if_neg h, beq_eq_false_iff_ne.mpr h]
    have e : ((BitVec.ofBool false).setWidth 32).toInt = 0 := by decide
    rw [e, Int.cast_zero, EReal.coe_zero]

/-- A select on "the word of lane l is the zero word", for a lane below 128, is the choice on "l is 0": a number below
    2^32 whose word is zero is zero. -/
theorem select_lane0 {α : Type} (l : Fin 128) (A B : α) :
    Scalar.select (IntOp.cmpi .eq (BitVec.ofNat 32 l.val) 0#32) A B = if l.val = 0 then A else B := by
  have hl := l.isLt
  have key : BitVec.ofNat 32 l.val = 0#32 → l.val = 0 := by
    intro h
    have h' := congrArg BitVec.toNat h
    simp only [BitVec.toNat_ofNat] at h'
    omega
  unfold Scalar.select IntOp.cmpi
  by_cases h : l.val = 0
  · rw [if_pos h, h]; rfl
  · have hne : ¬ BitVec.ofNat 32 l.val = 0#32 := fun e => h (key e)
    rw [if_neg h, beq_eq_false_iff_ne.mpr hne]; rfl

/-! ## The product of the row block with the transposed centre block -/

/-- The left operand's index at output (r, q) and contraction coordinate k has row r … -/
theorem lhs0 (j : S512x2000.Idx) (k : dot_S512x512_S512x2000_S512x2000_1_0_0_1_n_n.contr.Idx) :
    (dot_S512x512_S512x2000_S512x2000_1_0_0_1_n_n.lhsIdx j k 0).val = (j 0).val := by
  unfold DotDims.lhsIdx
  rw [dif_neg (show ¬(0 : Fin S512x512.rank) ∈ dot_S512x512_S512x2000_S512x2000_1_0_0_1_n_n.lhsBatch by decide), dif_pos (show (0 : Fin S512x512.rank) ∈ dot_S512x512_S512x2000_S512x2000_1_0_0_1_n_n.lhsNonContracting by decide)]
  rfl
/-- … and column k; -/
theorem lhs1 (j : S512x2000.Idx) (k : dot_S512x512_S512x2000_S512x2000_1_0_0_1_n_n.contr.Idx) :
    (dot_S512x512_S512x2000_S512x2000_1_0_0_1_n_n.lhsIdx j k 1).val = (k ⟨0, by decide⟩).val :=
  dot_S512x512_S512x2000_S512x2000_1_0_0_1_n_n.lhsIdx_val_of_single rfl j k
/-- the right operand's has row k … -/
theorem rhs0 (j : S512x2000.Idx) (k : dot_S512x512_S512x2000_S512x2000_1_0_0_1_n_n.contr.Idx) :
    (dot_S512x512_S512x2000_S512x2000_1_0_0_1_n_n.rhsIdx j k 0).val = (k ⟨0, by decide⟩).val :=
  dot_S512x512_S512x2000_S512x2000_1_0_0_1_n_n.rhsIdx_val_of_single rfl j k
/-- … and column q. -/
theorem rhs1 (j : S512x2000.Idx) (k : dot_S512x512_S512x2000_S512x2000_1_0_0_1_n_n.contr.Idx) :
    (dot_S512x512_S512x2000_S512x2000_1_0_0_1_n_n.rhsIdx j k 1).val = (j 1).val := by
  unfold DotDims.rhsIdx
  rw [dif_neg (show ¬(1 : Fin S512x2000.rank) ∈ dot_S512x512_S512x2000_S512x2000_1_0_0_1_n_n.rhsBatch by decide), dif_pos (show (1 : Fin S512x2000.rank) ∈ dot_S512x512_S512x2000_S512x2000_1_0_0_1_n_n.rhsNonContracting by decide)]
  rfl

/-- The product, accumulated into zero, of the 512×512 row block with the transpose of the 2000×512 centre block is, at
    (r, q), the inner product of row r with centre q. -/
theorem matmul_read (x0 : FVec Ideal S512x512 .bf16) (x1 : FVec Ideal S2000x512 .bf16) (r : Fin 512) (q : Fin 2000) :
    matmul dot_S512x512_S512x2000_S512x2000_1_0_0_1_n_n none x0
        (transpose S512x2000 [1, 0] x1 transposes_S2000x512_p1_0_S512x2000) (constant (F := Ideal) S512x2000 .f32 0x00000000#32) (ix2 r q)
      = ∑ k : Fin 512, x0 (ix2 r k) * x1 (ix2 q k) := by
  simp only [matmul]
  rw [Ideal.matmul_constant_zero_apply, ← Equiv.sum_comp (contrEquiv1 dot_S512x512_S512x2000_S512x2000_1_0_0_1_n_n 512 rfl rfl).symm]
  refine Finset.sum_congr rfl fun k _ => ?_
  have hk := contrEquiv1_symm_val dot_S512x512_S512x2000_S512x2000_1_0_0_1_n_n 512 rfl rfl k
  have el : dot_S512x512_S512x2000_S512x2000_1_0_0_1_n_n.lhsIdx (ix2 r q) ((contrEquiv1 dot_S512x512_S512x2000_S512x2000_1_0_0_1_n_n 512 rfl rfl).symm k) = ix2 r k := funext fun a => Fin.ext (by
    match a with
    | ⟨0, _⟩ => exact lhs0 _ _
    | ⟨1, _⟩ => exact (lhs1 _ _).trans hk)
  have er : dot_S512x512_S512x2000_S512x2000_1_0_0_1_n_n.rhsIdx (ix2 r q) ((contrEquiv1 dot_S512x512_S512x2000_S512x2000_1_0_0_1_n_n 512 rfl rfl).symm k) = ix2 k q := funext fun a => Fin.ext (by
    match a with
    | ⟨0, _⟩ => exact (rhs0 _ _).trans hk
    | ⟨1, _⟩ => exact rhs1 _ _)
  rw [el, er, transpose_ix2_apply x1 transposes_S2000x512_p1_0_S512x2000 k q]

/-! ## The mask -/

/-- The comparison of the rows' target words, repeated along the columns, with the columns' class numbers, widened and
    converted: at (r, c) it is 1 where row r's target word is the word of n·2000 + c, and 0 elsewhere. -/
theorem mask_read (n : ℕ) (x2 : IVec S512x1 32) (r : Fin 512) (c : Fin 2000) :
    (sitofp .f32 (extui 32 (cmpi .eq (broadcastTo S512x2000 x2 broadcasts_S512x1_S512x2000)
        (addi (broadcast S512x2000 (Scalar.muli (BitVec.ofNat 32 n) 2000#32)) (iota .tc S512x2000 32 [1] iota_S512x2000_d1_w32)))
        natLt_1_32) : FVec Ideal S512x2000 .f32) (ix2 r c)
      = Cert.CenterLoss.hit (x2 (ix2 r 0)) (n * 2000 + c.val) := by
  have hb : broadcastTo S512x2000 x2 broadcasts_S512x1_S512x2000 (ix2 r c) = x2 (ix2 r (0 : Fin 1)) :=
    LibKeepdims.broadcastTo_a1_ab_apply x2 _ r c
  have hi : iota .tc S512x2000 32 [1] iota_S512x2000_d1_w32 (ix2 r c) = BitVec.ofNat 32 c.val :=
    iota_single_apply .tc S512x2000 32 1 _ (ix2 r c)
  show FloatOps.sitofp (F := Ideal) .f32 ((IntOp.cmpi .eq (broadcastTo S512x2000 x2 broadcasts_S512x1_S512x2000 (ix2 r c))
      (IntOp.addi (Scalar.muli (BitVec.ofNat 32 n) 2000#32) (iota .tc S512x2000 32 [1] iota_S512x2000_d1_w32 (ix2 r c)))).setWidth 32) = _
  rw [hb, hi, colword]
  exact mask_word _ _

/-! ## The two payloads -/

/-- The partial-sum payload at its one index: the running value plus the double sum, over the block's 512 rows and 2000
    columns, of the clipped masked cosine distances. -/
theorem pay3_apply (i : grid0.Coords) (x0 : Vec Ideal S512x512 .bf16) (x1 : Vec Ideal S2000x512 .bf16)
    (x2 : Vec Ideal S512x1 .i32) (v30 : Vec Ideal S1x1 .f32) (j : S1x1.Idx) :
    k0_pay3 (F := Ideal) i x0 x1 x2 v30 j
      = v30 j + ∑ r : Fin 512, ∑ q : Fin 2000,
          min (Ideal.ofBits .f32 0x5368D4A5#32) (max (Ideal.ofBits .f32 0x2B8CBCCC#32)
            ((Ideal.ofBits .f32 0x3F800000#32 - ∑ k : Fin 512, x0 (ix2 r k) * x1 (ix2 q k))
              * Cert.CenterLoss.hit (x2 (ix2 r 0)) ((i 1).val * 2000 + q.val))) := by
  obtain ⟨p, u, rfl⟩ : ∃ (p : Fin 1) (u : Fin 1), j = ix2 p u := ⟨j 0, j 1, eq_ix2 j⟩
  unfold k0_pay3
  simp only [shapeCast_self]
  rw [addf_apply]
  refine congrArg (v30 (ix2 p u) + ·) ?_
  refine (LibKeepdims.shapeCast_a_a1_apply _ _ p u).trans ?_
  refine (LibKeepdimsCols.multiReduction_add_cols _ _ _ _ _ p).trans ?_
  refine Finset.sum_congr rfl fun r _ => ?_
  refine (LibKeepdims.shapeCast_a_a1_apply _ _ r p).trans ?_
  refine (LibKeepdims.multiReduction_add_rows _ _ _ _ _ r).trans ?_
  refine Finset.sum_congr rfl fun c _ => ?_
  rw [minimumf_apply, maximumf_apply, mulf_apply, subf_apply]
  exact congrArg₂ min rfl (congrArg₂ max rfl (congrArg₂ (· * ·)
    (congrArg₂ (· - ·) rfl (matmul_read x0 x1 r c)) (mask_read (i 1).val x2 r c)))

/-- The output payload at lane l of its one row: the 1×1 value in lane 0, the zero word in every other lane. -/
theorem pay1_apply (v38 : Vec Ideal S1x1 .f32) (l : Fin 128) :
    k0_pay1 (F := Ideal) v38 (ix3 (0 : Fin 1) (0 : Fin 1) l)
      = if l.val = 0 then v38 (ix2 0 0) else Ideal.ofBits .f32 0x00000000#32 := by
  unfold k0_pay1
  simp only [shapeCast_self]
  refine (shapeCast_ab_1ab_apply _ _ (0 : Fin 1) (0 : Fin 1) l).trans ?_
  rw [select_apply]
  have hi : iota .tc S1x128 32 [1] iota_S1x128_d1_w32 (ix2 (0 : Fin 1) l) = BitVec.ofNat 32 l.val :=
    iota_single_apply .tc S1x128 32 1 _ (ix2 (0 : Fin 1) l)
  have hb : broadcastTo S1x128 v38 broadcasts_S1x1_S1x128 (ix2 (0 : Fin 1) l) = v38 (ix2 (0 : Fin 1) (0 : Fin 1)) :=
    LibKeepdims.broadcastTo_a1_ab_apply v38 _ (0 : Fin 1) l
  show Scalar.select (IntOp.cmpi .eq (iota .tc S1x128 32 [1] iota_S1x128_d1_w32 (ix2 (0 : Fin 1) l)) 0#32)
      (broadcastTo S1x128 v38 broadcasts_S1x1_S1x128 (ix2 (0 : Fin 1) l)) (Ideal.ofBits .f32 0x00000000#32) = _
  rw [hi, hb]
  exact select_lane0 l _ _

end Cert.KernelIdeal.Payloads

end
-- ==== Proof.Pieces.lean ====
/-
  What one run of the kernel body leaves behind, case by case, as the body's own arithmetic.

  The body keeps a one-element running total in a scratch cell that it carries from one grid point to the next.
  At every point it adds the point's block sum to the cell; at the first column block of a row block it first sets the
  cell to zero; at the last column block it also writes the cell's new value into lane 0 of the output row (zeros in
  the other lanes). Each store covers its whole buffer, so what a buffer holds afterwards is its last store's value,
  and a load placed after a store reads that store's value.
-/
import proofs.«170992_j67783173866135_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First column block: the cell is set to zero and the block sum is added to that zero. -/
theorem scratch_first (c : Dev nD) (i : grid0.Coords) (a2 : Memref sig .tc .vmem S512x512 .bf16) (h2 : a2.IsWhole)
    (a3 : Memref sig .tc .vmem S2000x512 .bf16) (h3 : a3.IsWhole) (a4 : Memref sig .tc .vmem S512x1 .i32) (h4 : a4.IsWhole)
    (a5 : Memref sig .tc .vmem S1x1x128 .f32) (h5 : a5.IsWhole) (a6 : Memref sig .tc .vmem S1x1 .f32) (h6 : a6.IsWhole)
    (hc0 : cond0_0 i) (hc1 : ¬cond0_1 i)
    (x0 : Vec F S512x512 .bf16) (x1 : Vec F S2000x512 .bf16) (x2 : Vec F S512x1 .i32) :
    sout0_A_0 c i a2 h2 a3 h3 a4 h4 a5 h5 a6 h6 hc0 hc1 x0 x1 x2 = k0_pay3 i x0 x1 x2 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) zeros2, View.readCov_unit_zero (S := S1x1) _ zeros2]
  simp only [View.readAt_eq_ld, h2.read_unread, h3.read_unread, h4.read_unread,
    View.ld_unit_zero (S := S512x512) zeros2, View.ld_unit_zero (S := S2000x512) zeros2, View.ld_unit_zero (S := S512x1) zeros2]

/-- A middle column block: the block sum is added to what the cell held. -/
theorem scratch_middle (c : Dev nD) (i : grid0.Coords) (a2 : Memref sig .tc .vmem S512x512 .bf16) (h2 : a2.IsWhole)
    (a3 : Memref sig .tc .vmem S2000x512 .bf16) (h3 : a3.IsWhole) (a4 : Memref sig .tc .vmem S512x1 .i32) (h4 : a4.IsWhole)
    (a5 : Memref sig .tc .vmem S1x1x128 .f32) (h5 : a5.IsWhole) (a6 : Memref sig .tc .vmem S1x1 .f32) (h6 : a6.IsWhole)
    (hc0 : ¬cond0_0 i) (hc1 : ¬cond0_1 i)
    (x0 : Vec F S512x512 .bf16) (x1 : Vec F S2000x512 .bf16) (x2 : Vec F S512x1 .i32) (xs0 : Vec F S1x1 .f32) :
    sout0_B_0 c i a2 h2 a3 h3 a4 h4 a5 h5 a6 h6 hc0 hc1 x0 x1 x2 xs0 = k0_pay3 i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero zeros2]
  simp only [View.readAt_eq_ld, h2.read_unread, h3.read_unread, h4.read_unread, h6.read_unread,
    View.ld_unit_zero (S := S512x512) zeros2, View.ld_unit_zero (S := S2000x512) zeros2, View.ld_unit_zero (S := S512x1) zeros2,
    View.ld_unit_zero (S := S1x1) zeros2]

/-- The last column block leaves the same in the cell: the block sum added to what it held. -/
theorem scratch_last (c : Dev nD) (i : grid0.Coords) (a2 : Memref sig .tc .vmem S512x512 .bf16) (h2 : a2.IsWhole)
    (a3 : Memref sig .tc .vmem S2000x512 .bf16) (h3 : a3.IsWhole) (a4 : Memref sig .tc .vmem S512x1 .i32) (h4 : a4.IsWhole)
    (a5 : Memref sig .tc .vmem S1x1x128 .f32) (h5 : a5.IsWhole) (a6 : Memref sig .tc .vmem S1x1 .f32) (h6 : a6.IsWhole)
    (hc0 : ¬cond0_0 i) (hc1 : cond0_1 i)
    (x0 : Vec F S512x512 .bf16) (x1 : Vec F S2000x512 .bf16) (x2 : Vec F S512x1 .i32) (xs0 : Vec F S1x1 .f32) :
    sout0_C_0 c i a2 h2 a3 h3 a4 h4 a5 h5 a6 h6 hc0 hc1 x0 x1 x2 xs0 = k0_pay3 i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero zeros2]
  simp only [View.readAt_eq_ld, h2.read_unread, h3.read_unread, h4.read_unread, h6.read_unread,
    View.ld_unit_zero (S := S512x512) zeros2, View.ld_unit_zero (S := S2000x512) zeros2, View.ld_unit_zero (S := S512x1) zeros2,
    View.ld_unit_zero (S := S1x1) zeros2]

/-- … and it writes the output row from the cell's NEW value: lane 0 holds it, the other lanes zero. -/
theorem out_last (c : Dev nD) (i : grid0.Coords) (a2 : Memref sig .tc .vmem S512x512 .bf16) (h2 : a2.IsWhole)
    (a3 : Memref sig .tc .vmem S2000x512 .bf16) (h3 : a3.IsWhole) (a4 : Memref sig .tc .vmem S512x1 .i32) (h4 : a4.IsWhole)
    (a5 : Memref sig .tc .vmem S1x1x128 .f32) (h5 : a5.IsWhole) (a6 : Memref sig .tc .vmem S1x1 .f32) (h6 : a6.IsWhole)
    (hc0 : ¬cond0_0 i) (hc1 : cond0_1 i)
    (x0 : Vec F S512x512 .bf16) (x1 : Vec F S2000x512 .bf16) (x2 : Vec F S512x1 .i32) (xs0 : Vec F S1x1 .f32) :
    out0_C_3 c i a2 h2 a3 h3 a4 h4 a5 h5 a6 h6 hc0 hc1 x0 x1 x2 xs0 = k0_pay1 (k0_pay3 i x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero zeros3, View.readCov_unit_zero (S := S1x1) _ zeros2]
  simp only [View.readAt_eq_ld, h2.read_unread, h3.read_unread, h4.read_unread, h6.read_unread,
    View.ld_unit_zero (S := S512x512) zeros2, View.ld_unit_zero (S := S2000x512) zeros2, View.ld_unit_zero (S := S512x1) zeros2,
    View.ld_unit_zero (S := S1x1) zeros2]

end Cert.KernelIdeal.Pieces

end
-- ==== Proof.Fold.lean ====
/-
  The running total across the grid.

  The grid has 8 row blocks of 5 column blocks each, visited row block by row block: point `n` is column block
  `n % 5` of row block `n / 5`. The cell the body carries is set afresh at the first column block of each row block
  (`n % 5 = 0`) and stepped from its previous contents at the four others. So after point `n` it holds the fold of
  the body's step over the points `5·(n/5), …, n` of its row block, begun from the zero the body stores.
-/
import proofs.«170992_j67783173866135_1_alg».proof.Proof.Pieces

noncomputable section

open Idealize.ShloMosaic Idealize.ShloMosaic.TcCoe Idealize.SL.Sem

namespace Cert.KernelIdeal.Fold

open Cert.KernelIdeal Cert.KernelIdeal.Gen Cert.KernelIdeal.Pieces

variable {F : FTy → Type} [FloatOps F]
variable (m : (ℓ : Loc nD τ sig) → Buf (Elt F) ℓ)

/-- The body's arithmetic at point `n`, over the three blocks the point's windows hold, from the cell's contents `acc`. -/
def step (c : Dev nD) (n : ℕ) (h : n < cfg0.N) (acc : Vec F S1x1 .f32) : Vec F S1x1 .f32 :=
  k0_pay3 (grid0.coords ⟨n, h⟩) (iblk m c 0 ⟨n, h⟩) (iblk m c 1 ⟨n, h⟩) (iblk m c 2 ⟨n, h⟩) acc

/-- What the carried cell holds after point `n`. -/
def cell (c : Dev nD) (n : ℕ) (h : n < cfg0.N) : Vec F S1x1 .f32 := (outsAt0 m c n h).2

/-- At the first column block of a row block the cell is the step from the stored zero. -/
theorem cell_reset (c : Dev nD) (n : ℕ) (h : n < cfg0.N) (h0 : n % 5 = 0) :
    cell m c n h = step m c n h (k0_pay2 (F := F)) := by
  have h1 : ¬n % 5 = 4 := by omega
  show (outsAt0 m c (⟨n, h⟩ : Fin cfg0.N).val (⟨n, h⟩ : Fin cfg0.N).isLt).2 = _
  rw [outsAt0_A m c ⟨n, h⟩ h0 h1]
  exact scratch_first (F := F) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h1 ((hcond0_1 ⟨n, h⟩).mp hh))
    (iblk m c 0 ⟨n, h⟩) (iblk m c 1 ⟨n, h⟩) (iblk m c 2 ⟨n, h⟩)

/-- At every other column block it is the step from what the point before left. -/
theorem cell_step (c : Dev nD) (n : ℕ) (h : n + 1 < cfg0.N) (h0 : ¬(n + 1) % 5 = 0) :
    cell m c (n + 1) h = step m c (n + 1) h (cell m c n (Nat.lt_of_succ_lt h)) := by
  show (outsAt0 m c (⟨n + 1, h⟩ : Fin cfg0.N).val (⟨n + 1, h⟩ : Fin cfg0.N).isLt).2 = _
  by_cases h1 : (n + 1) % 5 = 4
  · rw [outsAt0_C m c ⟨n + 1, h⟩ h0 h1]
    exact scratch_last (F := F) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    exact scratch_middle (F := F) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- So after any point `t` the cell is the fold of the step over its row block's points up to `t`. -/
theorem cell_fold (c : Dev nD) (t : ℕ) (ht : t < cfg0.N) (h' : 5 * (t / 5) + t % 5 < cfg0.N) :
    cell m c t ht
      = Pipeline.accAt (fun n h => step m c n h (k0_pay2 (F := F))) (fun n h acc => step m c n h acc) (5 * (t / 5)) (t % 5) h' :=
  Pipeline.eq_accAt_of_mod (fun n h => cell m c n h) 5 (fun n h => step m c n h (k0_pay2 (F := F)))
    (fun n h acc => step m c n h acc) (cell_reset m c) (cell_step m c) (by decide) t ht h'

/-- The last column block writes the output row from the cell's new value. -/
theorem out_at_last (c : Dev nD) (t : Fin cfg0.N) (h1 : t.val % 5 = 4) :
    (outsAt0 m c t.val t.isLt).1 = k0_pay1 (cell m c t.val t.isLt) := by
  have h0 : ¬t.val % 5 = 0 := by omega
  have hpos : t.val ≠ 0 := fun e => by rw [e] at h1; exact absurd h1 (by decide)
  obtain ⟨n, hn⟩ := t
  cases n with
  | zero => exact absurd rfl hpos
  | succ n =>
    show (outsAt0 m c (⟨n + 1, hn⟩ : Fin cfg0.N).val (⟨n + 1, hn⟩ : Fin cfg0.N).isLt).1 = k0_pay1 (cell m c (n + 1) hn)
    rw [cell_step m c n hn h0, outsAt0_C m c ⟨n + 1, hn⟩ h0 h1]
    unfold step cell
    -- the pair's first component, reduced before the case's value is cited
    dsimp only
    exact out_last (F := F) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) scM0_0 (Memref.isWhole_whole _)
      (fun hh => h0 ((hcond0_0 ⟨n + 1, hn⟩).mp hh)) ((hcond0_1 ⟨n + 1, hn⟩).mpr h1)
      (iblk m c 0 ⟨n + 1, hn⟩) (iblk m c 1 ⟨n + 1, hn⟩) (iblk m c 2 ⟨n + 1, hn⟩) (outsAt0 m c n (Nat.lt_of_succ_lt hn)).2

end Cert.KernelIdeal.Fold

end
-- ==== Proof.Blocks.lean ====
/-
  Where a grid point's blocks sit in the arrays.

  Point `t` is column block `t % 5` of row block `t / 5`. Its block of the normalized features is rows
  `512·(t/5) …` (all 512 columns); of the normalized centres, rows `2000·(t%5) …`; of the targets, rows `512·(t/5) …`
  of the one column; and the output row it writes is row `t/5` of the 8 × 1 × 128 result. A block's coordinate is the
  block's number times its extent plus the coordinate inside the block.
-/
import proofs.«170992_j67783173866135_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps and the column-block coordinate, at every grid point. -/
theorem idx_facts : ∀ t : Fin cfg0.N,
    win0_0.index t (0 : Fin 2) = t.val / 5 ∧ win0_0.index t (1 : Fin 2) = 0
    ∧ win0_1.index t (0 : Fin 2) = t.val % 5 ∧ win0_1.index t (1 : Fin 2) = 0
    ∧ win0_2.index t (0 : Fin 2) = t.val / 5 ∧ win0_2.index t (1 : Fin 2) = 0
    ∧ win0_3.index t (0 : Fin 3) = t.val / 5 ∧ win0_3.index t (1 : Fin 3) = 0 ∧ win0_3.index t (2 : Fin 3) = 0
    ∧ ((grid0.coords t) 1).val = t.val % 5 :=
  (by decide +kernel : ∀ t : Fin grid0.N, _)

theorem pt_lt (t : Fin cfg0.N) : t.val < 40 := lt_of_lt_of_eq t.isLt (show cfg0.N = 40 from N_0)

/-- The row of the 4096 that row `r` of point `t`'s block is. -/
def rowOf (t : Fin cfg0.N) (r : Fin 512) : Fin 4096 := ⟨512 * (t.val / 5) + r.val, by have := pt_lt t; omega⟩
/-- The class of the 10000 that column `q` of point `t`'s block is. -/
def classOf (t : Fin cfg0.N) (q : Fin 2000) : Fin 10000 := ⟨2000 * (t.val % 5) + q.val, by omega⟩

/-- The features block at point `t`, read at `(r, k)`. -/
theorem feat_apply (c : Dev nD) (t : Fin cfg0.N) (r : Fin 512) (k : Fin 512) :
    (iblk m c 0 t : Vec F S512x512 .bf16) (ix2 r k) = V m c main_v6 (ix2 (rowOf t r) k) := by
  obtain ⟨e0, e1, -⟩ := idx_facts t
  unfold iblk
  rw [View.read_apply]
  show V m c main_v6 _ = V m c main_v6 _
  congr 1
  funext a
  apply Fin.ext
  match a with
  | ⟨0, _⟩ => show win0_0.index t (0 : Fin 2) * 512 + 1 * r.val = 512 * (t.val / 5) + r.val; rw [e0]; omega
  | ⟨1, _⟩ => show win0_0.index t (1 : Fin 2) * 512 + 1 * k.val = k.val; rw [e1]; omega

/-- The centres block at point `t`, read at `(q, k)`. -/
theorem cent_apply (c : Dev nD) (t : Fin cfg0.N) (q : Fin 2000) (k : Fin 512) :
    (iblk m c 1 t : Vec F S2000x512 .bf16) (ix2 q k) = V m c main_v7 (ix2 (classOf t q) k) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 2000 + 1 * q.val = 2000 * (t.val % 5) + q.val; rw [e0]; omega
  | ⟨1, _⟩ => show win0_1.index t (1 : Fin 2) * 512 + 1 * k.val = k.val; rw [e1]; omega

/-- The targets block at point `t`, read at row `r` of its one column. -/
theorem targ_apply (c : Dev nD) (t : Fin cfg0.N) (r : Fin 512) :
    (iblk m c 2 t : Vec F S512x1 .i32) (ix2 r 0) = V m c main_v8 (ix2 (rowOf t r) 0) := by
  obtain ⟨-, -, -, -, e0, e1, -⟩ := idx_facts t
  unfold iblk
  rw [View.read_apply]
  show V m c main_v8 _ = V m c main_v8 _
  congr 1
  funext a
  apply Fin.ext
  match a with
  | ⟨0, _⟩ => show win0_2.index t (0 : Fin 2) * 512 + 1 * r.val = 512 * (t.val / 5) + r.val; rw [e0]; omega
  | ⟨1, _⟩ => show win0_2.index t (1 : Fin 2) * 1 + 1 * (0 : Fin 1).val = (0 : Fin 1).val; rw [e1]; rfl

/-- The column block's number as the body reads it off the grid. -/
theorem col_block (t : Fin cfg0.N) : ((grid0.coords t) 1).val = t.val % 5 := (idx_facts t).2.2.2.2.2.2.2.2.2

end Cert.KernelIdeal.Blocks

end
-- ==== Proof.Region.lean ====
/-
  The kernel's result array after the run.

  The output row of a row block is written back once, at the block's last column block (`t % 5 = 4`), and what is
  written is the row built from the cell's final value: that value in lane 0 and zeros in the other 127 lanes. Row
  `t / 5` of the 8 × 1 × 128 result is that point's block, every index of the result lies in exactly such a block, so
  the array ends holding, at `(bi, 0, l)`, lane `l` of the row built from row block `bi`'s final cell.
-/
import proofs.«170992_j67783173866135_1_alg».proof.Proof.Fold
import proofs.«170992_j67783173866135_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.KernelIdeal.Fold Cert.KernelIdeal.Blocks

variable {F : FTy → Type} [FloatOps F]
variable (m : (ℓ : Loc nD τ sig) → Buf (Elt F) ℓ)

/-- The cell names its point by a number: equal numbers, equal cells. -/
theorem cell_congr (c : Dev nD) (n n' : ℕ) (h : n < cfg0.N) (h' : n' < cfg0.N) (e : n = n') : cell m c n h = cell m c n' h' := by
  subst e; rfl

/-- The last point of row block `bi`. -/
theorem last_lt (bi : Fin 8) : 5 * bi.val + 4 < cfg0.N := by rw [show cfg0.N = 40 from N_0]; omega

/-- The cell when row block `bi` is finished. -/
def rowCell (c : Dev nD) (bi : Fin 8) : Vec F S1x1 .f32 := cell m c (5 * bi.val + 4) (last_lt bi)

/-- The result array: row `bi` is the row the body builds from row block `bi`'s final cell. -/
def outArr (c : Dev nD) : S8x1x128.Idx → Elt F .f32 :=
  fun j => k0_pay1 (rowCell m c (j 0)) (ix3 (0 : Fin 1) (0 : Fin 1) (j 2))

/-- An index of a 1 × 1 × 128 block is named by its lane. -/
theorem lane_only (y : S1x1x128.Idx) : y = ix3 (0 : Fin 1) (0 : Fin 1) (y 2) := by
  funext a
  match a with
  | ⟨0, _⟩ => exact Fin.ext (show (y 0).val = 0 from Nat.lt_one_iff.mp (y 0).isLt)
  | ⟨1, _⟩ => exact Fin.ext (show (y 1).val = 0 from Nat.lt_one_iff.mp (y 1).isLt)
  | ⟨2, _⟩ => rfl

/-- What the last column block of a row block writes back is its row of the result array. -/
theorem flushed_eq (c : Dev nD) (t : Fin cfg0.N) (hf : (cfg0.win 3).flush t = true) :
    (dats m 0 c).flushed 3 t = ((cfg0.win 3).blk t).view.read (Elt F) (outArr m c) := by
  have h4 : t.val % 5 = 4 := (flush0_3 t).mp hf
  have hN := pt_lt t
  obtain ⟨-, -, -, -, -, -, e0, e1, e2, -⟩ := idx_facts t
  show (cfg0.win 3).cut (grid0.coords t) ((dats m 0 c).after 3 t) = _
  rw [after0_3, out_at_last m c t h4]
  funext y
  rw [View.read_apply]
  have hb : ((((cfg0.win 3).blk t).view.emb y) 0).val = t.val / 5 := by
    show win0_3.index t (0 : Fin 3) * 1 + 1 * (y 0).val = t.val / 5
    have : (y 0).val < 1 := (y 0).isLt
    rw [e0]; omega
  have hl : ((((cfg0.win 3).blk t).view.emb y) 2).val = (y 2).val := by
    show win0_3.index t (2 : Fin 3) * 128 + 1 * (y 2).val = (y 2).val
    rw [e2]; omega
  have hcell : rowCell m c ((((cfg0.win 3).blk t).view.emb y) 0) = cell m c t.val t.isLt :=
    cell_congr m c _ _ _ _ (by rw [hb]; omega)
  show k0_pay1 (cell m c t.val t.isLt) y
    = k0_pay1 (rowCell m c ((((cfg0.win 3).blk t).view.emb y) 0)) (ix3 (0 : Fin 1) (0 : Fin 1) ((((cfg0.win 3).blk t).view.emb y) 2))
  rw [hcell]
  refine (congrArg (k0_pay1 (cell m c t.val t.isLt)) (lane_only y)).trans ?_
  exact congrArg (fun l : Fin 128 => k0_pay1 (cell m c t.val t.isLt) (ix3 (0 : Fin 1) (0 : Fin 1) l)) (Fin.ext hl.symm)

/-- An index of the result is in point `t`'s block iff each coordinate is in the block's range on its axis. -/
theorem mem_blk (t : Fin cfg0.N) (j : S8x1x128.Idx) :
    j ∈ ((cfg0.win 3).blk t).view.set ↔ ∀ a : Fin 3, win0_3.index t a * S1x1x128.size a ≤ (j a).val
      ∧ (j a).val < win0_3.index t a * S1x1x128.size a + S1x1x128.size a := by
  show j ∈ ((View.whole main_v9).slice (win0_3.rect t)).set ↔ _
  rw [View.set_slice_whole, Rect.mem_set_unit]
  exact Iff.rfl

/-- Every index of the result is in the block written back at the last point of its row block. -/
theorem covered (j : S8x1x128.Idx) : ∃ t : Fin cfg0.N, (cfg0.win 3).flush t = true ∧ j ∈ ((cfg0.win 3).blk t).view.set := by
  have h0 : (j 0).val < 8 := (j 0).isLt
  have h1 : (j 1).val < 1 := (j 1).isLt
  have h2 : (j 2).val < 128 := (j 2).isLt
  refine ⟨⟨5 * (j 0).val + 4, last_lt (j 0)⟩, (flush0_3 _).mpr (by show (5 * (j 0).val + 4) % 5 = 4; omega), ?_⟩
  obtain ⟨-, -, -, -, -, -, e0, e1, e2, -⟩ := idx_facts ⟨5 * (j 0).val + 4, last_lt (j 0)⟩
  rw [mem_blk]
  intro a
  match a with
  | ⟨0, _⟩ =>
    show win0_3.index _ (0 : Fin 3) * 1 ≤ (j 0).val ∧ (j 0).val < win0_3.index _ (0 : Fin 3) * 1 + 1
    rw [e0]; show (5 * (j 0).val + 4) / 5 * 1 ≤ (j 0).val ∧ (j 0).val < (5 * (j 0).val + 4) / 5 * 1 + 1; omega
  | ⟨1, _⟩ =>
    show win0_3.index _ (1 : Fin 3) * 1 ≤ (j 1).val ∧ (j 1).val < win0_3.index _ (1 : Fin 3) * 1 + 1
    rw [e1]; omega
  | ⟨2, _⟩ =>
    show win0_3.index _ (2 : Fin 3) * 128 ≤ (j 2).val ∧ (j 2).val < win0_3.index _ (2 : Fin 3) * 128 + 128
    rw [e2]; omega

/-- So the result array ends holding `outArr`. -/
theorem final (c : Dev nD) : (dats m 0 c).arrAt 3 cfg0.N = outArr m c :=
  (dats m 0 c).arrAt_eq_of_cover 3 (outArr m c) (flushed_eq m c) covered

end Cert.KernelIdeal.Region

end
-- ==== Proof.SumRegroup.lean ====
/-
  Regrouping a finite sum.

  Addition in a commutative monoid may be taken in any order and in any grouping. A sum over i < m·n is therefore the
  double sum over (a, p), a < m and p < n, of the summand at i = p + n·a: the pairs (a, p) and the numbers below m·n
  correspond one to one. The extended reals under + are such a monoid (with ⊤ + ⊥ = ⊥), so no finiteness of the
  summands is needed: only commutativity and associativity are used, never a distributive or a cancellation law.
-/
import Mathlib.Algebra.BigOperators.Fin
import Mathlib.Logic.Equiv.Fin.Basic

namespace Cert.CenterLoss

variable {β : Type*} [AddCommMonoid β]

/-- A sum over the numbers below `m * n` as the double sum over quotient `a` and remainder `p`. -/
theorem sum_split (m n : ℕ) (f : Fin (m * n) → β) :
    ∑ i, f i = ∑ a : Fin m, ∑ p : Fin n, f (finProdFinEquiv (a, p)) := by
  rw [← finProdFinEquiv.sum_comp f, Fintype.sum_prod_type]

/-- The number the pair `(a, p)` names: `p + n * a`. -/
theorem split_val (m n : ℕ) (a : Fin m) (p : Fin n) : (finProdFinEquiv (a, p) : Fin (m * n)).val = p.val + n * a.val := rfl

/-- A double sum over rows below `m * n` and columns below `m' * n'`, regrouped block by block. -/
theorem sum_split2 (m n m' n' : ℕ) (f : Fin (m * n) → Fin (m' * n') → β) :
    ∑ i, ∑ j, f i j
      = ∑ a : Fin m, ∑ a' : Fin m', ∑ p : Fin n, ∑ p' : Fin n', f (finProdFinEquiv (a, p)) (finProdFinEquiv (a', p')) := by
  rw [sum_split m n (fun i => ∑ j, f i j)]
  refine Finset.sum_congr rfl fun a _ => ?_
  -- for each remainder `p` the inner sum splits the same way; then the two middle sums change places
  exact (Finset.sum_congr rfl fun p _ => sum_split m' n' (f (finProdFinEquiv (a, p)))).trans Finset.sum_comm

end Cert.CenterLoss
-- ==== Proof.KernelTotal.lean ====
/-
  The kernel's result array sums to the specification's double sum.

  At the extended reals the body's step adds the point's block sum to the cell: the sum, over the 512 rows and 2000
  classes of the point's blocks, of the specification's summand at the row and class those are in the whole arrays. The
  cell when a row block is finished is therefore zero plus its five points' block sums; the output row carries that
  value in lane 0 and zeros elsewhere, so the 8 × 1 × 128 array sums to the eight row blocks' values; and the row
  blocks' and column blocks' sums, regrouped (only commutativity and associativity of +), are the double sum over all
  4096 rows and 10000 classes.
-/
import proofs.«170992_j67783173866135_1_alg».proof.Proof.Payloads
import proofs.«170992_j67783173866135_1_alg».proof.Proof.Region
import proofs.«170992_j67783173866135_1_alg».proof.Proof.SumRegroup

noncomputable section

open Idealize.ShloMosaic Idealize.ShloMosaic.TcCoe Idealize.SL.Sem Idealize.ShloMosaic.ValueIdx

namespace Cert.KernelIdeal.Total

open Cert.KernelIdeal Cert.KernelIdeal.Gen Cert.KernelIdeal.Fold Cert.KernelIdeal.Blocks Cert.KernelIdeal.Region
open Cert.KernelIdeal.Payloads Cert.CenterLoss

variable (m : (ℓ : Loc nD τ sig) → Buf (Elt Ideal) ℓ)

/-- A sum over a rank-3 index is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- The normalized features, the normalized centres and the targets as the region finds them. -/
def xnK (c : Dev nD) : SX.Idx → EReal := V m c main_v6
def ynK (c : Dev nD) : SY.Idx → EReal := V m c main_v7
def tgK (c : Dev nD) : ST.Idx → BitVec 32 := fun j => V m c main_v8 (ix2 (j 0) (0 : Fin 1))

/-- Point `n`'s block sum: the specification's summands over the rows and classes of the point's blocks. -/
def blockSum (c : Dev nD) (n : ℕ) : EReal :=
  if h : n < cfg0.N then ∑ r : Fin 512, ∑ q : Fin 2000, term (xnK m c) (ynK m c) (tgK m c) (rowOf ⟨n, h⟩ r) (classOf ⟨n, h⟩ q) else 0

/-- The body's summand over three blocks is the specification's at row `b` and class `cc` of the arrays, when the
    blocks' row `r` is the features' and the targets' row `b`, their row `q` is the centres' row `cc`, and the class number the
    body forms, `g·2000 + q`, is `cc`. -/
theorem summand_eq (c : Dev nD) (b : Fin 4096) (cc : Fin 10000) (r : Fin 512) (q : Fin 2000) (g : ℕ)
    (x0 : Vec Ideal S512x512 .bf16) (x1 : Vec Ideal S2000x512 .bf16) (x2 : Vec Ideal S512x1 .i32)
    (h0 : ∀ k : Fin 512, x0 (ix2 r k) = xnK m c (ix2 b k)) (h1 : ∀ k : Fin 512, x1 (ix2 q k) = ynK m c (ix2 cc k))
    (h2 : x2 (ix2 r 0) = tgK m c (ix1 b)) (hg : g * 2000 + q.val = cc.val) :
    min (Ideal.ofBits .f32 0x5368D4A5#32) (max (Ideal.ofBits .f32 0x2B8CBCCC#32)
      ((Ideal.ofBits .f32 0x3F800000#32 - ∑ k : Fin 512, x0 (ix2 r k) * x1 (ix2 q k)) * hit (x2 (ix2 r 0)) (g * 2000 + q.val)))
      = term (xnK m c) (ynK m c) (tgK m c) b cc := by
  unfold term
  rw [Finset.sum_congr rfl (fun k _ => by rw [h0 k, h1 k]), h2, hg]

/-- The body's step adds the point's block sum to the cell. -/
theorem step_apply (c : Dev nD) (n : ℕ) (h : n < cfg0.N) (acc : Vec Ideal S1x1 .f32) (j : S1x1.Idx) :
    step m c n h acc j = acc j + blockSum m c n := by
  have hb : blockSum m c n = ∑ r : Fin 512, ∑ q : Fin 2000,
      term (xnK m c) (ynK m c) (tgK m c) (rowOf ⟨n, h⟩ r) (classOf ⟨n, h⟩ q) := dif_pos h
  have hcol : ∀ q : Fin 2000, ((grid0.coords ⟨n, h⟩) 1).val * 2000 + q.val = (classOf ⟨n, h⟩ q).val := fun q => by
    rw [col_block]; show n % 5 * 2000 + q.val = 2000 * (n % 5) + q.val; omega
  rw [hb]
  show k0_pay3 (F := Ideal) (grid0.coords ⟨n, h⟩) (iblk m c 0 ⟨n, h⟩) (iblk m c 1 ⟨n, h⟩) (iblk m c 2 ⟨n, h⟩) acc j = _
  refine (pay3_apply (grid0.coords ⟨n, h⟩) (iblk m c 0 ⟨n, h⟩) (iblk m c 1 ⟨n, h⟩) (iblk m c 2 ⟨n, h⟩) acc j).trans ?_
  exact congrArg (acc j + ·) (Finset.sum_congr rfl fun r _ => Finset.sum_congr rfl fun q _ =>
    summand_eq m c (rowOf ⟨n, h⟩ r) (classOf ⟨n, h⟩ q) r q ((grid0.coords ⟨n, h⟩) 1).val
      (iblk m c 0 ⟨n, h⟩) (iblk m c 1 ⟨n, h⟩) (iblk m c 2 ⟨n, h⟩)
      (fun k => feat_apply m c ⟨n, h⟩ r k) (fun k => cent_apply m c ⟨n, h⟩ q k) (targ_apply m c ⟨n, h⟩ r) (hcol q))

/-- The zero the body stores at a row block's first point. -/
theorem zero_apply (j : S1x1.Idx) : k0_pay2 (F := Ideal) j = Ideal.ofBits .f32 0x00000000#32 := rfl

/-- After point `t` the cell holds zero plus the block sums of its row block's points up to `t`. -/
theorem cell_apply (c : Dev nD) (t : ℕ) (ht : t < cfg0.N) (j : S1x1.Idx) :
    cell m c t ht j = Ideal.ofBits .f32 0x00000000#32 + ∑ s ∈ Finset.range (t % 5 + 1), blockSum m c (5 * (t / 5) + s) := by
  have h' : 5 * (t / 5) + t % 5 < cfg0.N := by have := Nat.div_add_mod t 5; omega
  rw [cell_fold m c t ht h']
  exact Pipeline.accAt_add_apply (N := cfg0.N) (fun n h => step m c n h (k0_pay2 (F := Ideal))) (fun n h acc => step m c n h acc)
    (fun _ => Ideal.ofBits .f32 0x00000000#32) (fun n _ => blockSum m c n) (5 * (t / 5)) 4
    (fun h i => (step_apply m c _ h _ i).trans (by rw [zero_apply]))
    (fun n h acc i _ _ => step_apply m c n h acc i)
    (t % 5) (by omega) h' j

/-- When row block `bi` is finished: zero plus its five points' block sums. -/
theorem rowCell_apply (c : Dev nD) (bi : Fin 8) (j : S1x1.Idx) :
    rowCell m c bi j = Ideal.ofBits .f32 0x00000000#32 + ∑ s ∈ Finset.range 5, blockSum m c (5 * bi.val + s) := by
  unfold rowCell
  rw [cell_apply]
  have e1 : (5 * bi.val + 4) % 5 + 1 = 5 := by omega
  have e2 : (5 * bi.val + 4) / 5 = bi.val := by omega
  rw [e1, e2]

/-- The result array at `(bi, u, l)`: row block `bi`'s value in lane 0, the zero word in the other lanes. -/
theorem outArr_apply (c : Dev nD) (bi : Fin 8) (u : Fin 1) (l : Fin 128) :
    outArr m c (ix3 bi u l)
      = if l.val = 0 then Ideal.ofBits .f32 0x00000000#32 + ∑ s ∈ Finset.range 5, blockSum m c (5 * bi.val + s)
        else Ideal.ofBits .f32 0x00000000#32 := by
  show k0_pay1 (F := Ideal) (rowCell m c bi) (ix3 (0 : Fin 1) (0 : Fin 1) l) = _
  rw [pay1_apply, rowCell_apply]

/-- The result array's total: the eight row blocks' values. -/
theorem outArr_total (c : Dev nD) :
    ∑ j : S8x1x128.Idx, outArr m c j = ∑ bi : Fin 8, ∑ s ∈ Finset.range 5, blockSum m c (5 * bi.val + s) := by
  rw [sum_idx3]
  refine Finset.sum_congr rfl fun bi _ => ?_
  rw [Fintype.sum_unique]
  rw [Finset.sum_eq_single (0 : Fin 128)]
  · rw [outArr_apply, if_pos (show (0 : Fin 128).val = 0 from rfl), Ideal.ofBits_zero_f32, zero_add]
  · intro l _ hl
    rw [outArr_apply, if_neg (show ¬l.val = 0 from fun e => hl (Fin.ext e)), Ideal.ofBits_zero_f32]
  · intro h; exact absurd (Finset.mem_univ _) h

/-- The row blocks' and column blocks' sums, regrouped, are the double sum over all rows and classes. -/
theorem blocks_total (c : Dev nD) :
    ∑ bi : Fin 8, ∑ s ∈ Finset.range 5, blockSum m c (5 * bi.val + s) = total (xnK m c) (ynK m c) (tgK m c) := by
  unfold total
  rw [sum_split2 8 512 5 2000 (fun b cc => term (xnK m c) (ynK m c) (tgK m c) b cc)]
  refine Finset.sum_congr rfl fun a _ => ?_
  rw [Finset.sum_range]
  refine Finset.sum_congr rfl fun a' _ => ?_
  have hlt : 5 * a.val + a'.val < cfg0.N := by rw [show cfg0.N = 40 from N_0]; omega
  unfold blockSum
  rw [dif_pos hlt]
  refine Finset.sum_congr rfl fun p _ => Finset.sum_congr rfl fun p' _ => ?_
  have er : rowOf ⟨5 * a.val + a'.val, hlt⟩ p = finProdFinEquiv (a, p) := Fin.ext (by
    show 512 * ((5 * a.val + a'.val) / 5) + p.val = p.val + 512 * a.val; omega)
  have ec : classOf ⟨5 * a.val + a'.val, hlt⟩ p' = finProdFinEquiv (a', p') := Fin.ext (by
    show 2000 * ((5 * a.val + a'.val) % 5) + p'.val = p'.val + 2000 * a'.val; omega)
  rw [er, ec]

/-- So the kernel's result array sums to the specification's double sum over the arrays the region finds. -/
theorem kernel_total (c : Dev nD) : ∑ j : S8x1x128.Idx, outArr m c j = total (xnK m c) (ynK m c) (tgK m c) :=
  (outArr_total m c).trans (blocks_total m c)

end Cert.KernelIdeal.Total

end
-- ==== Proof.KernelRun.lean ====
/-
  The kernel's run, read: its result is the tail's two operations over the region's result array.

  After the region the program sums the 8 × 1 × 128 result array over all three axes from zero and divides by 4096.
  Nothing else touches the array between the region's end and those two lines, so the scalar result is that quotient of
  that sum of the array the region leaves; the three argument arrays are never written.
-/
import proofs.«170992_j67783173866135_1_alg».proof.Proof.Region
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Region

variable {F : FTy → Type} [FloatOps F]
variable (m : (ℓ : Loc nD τ sig) → Buf (Elt F) ℓ) (ρ : Dev nD → PrngReg)

/-- The program's result as a function of the region's result array: its total from zero, divided by 4096. -/
def lossOf (A : S8x1x128.Idx → Elt F .f32) : S_.Idx → Elt F .f32 :=
  Host.divf (Host.reduceAdd A (constant S_ .f32 0x00000000#32) reducesTo_S8x1x128_S_d0_1_2 h_S_) (constant S_ .f32 0x45800000#32)

/-- The two lines after the region compute `lossOf` of the array the region leaves. -/
theorem tail_eq (c : Dev nD) :
    Pipeline.afterTail₀ cfgs (dats m) 0 (V0 m) [hostOps1] c main_v11 = lossOf (outArr m c) := by
  unfold Pipeline.afterTail₀
  show StableHlo.after hostOps1 _ (Proc.devRef .tc main_v11) = _
  after_results
  unfold lossOf
  rw [show Pipeline.withArrays (cfgs 0).spec c (V0 m c) (fun w => (dats m 0 c).arrAt w (cfgs 0).N) (Proc.devRef .tc main_v9)
      = (dats m 0 c).arrAt 3 cfg0.N from Pipeline.withArrays_arr spec0 winFacts0.arr_inj c _ _ 3, final]

/-- Every weakly fair execution terminates with the result at `lossOf` of the region's array and the arguments unchanged. -/
theorem run : θ_run defs (onTc (τ := τ) (main (F := F))) ⟨m, fun _ => 0, ρ⟩ fun r => ∀ c : Dev nD,
      r.2.mem ((c.tc : Thread nD τ).loc main_v11) = lossOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefTotal.lean ====
/-
  The reference computes the specification.

  Read one stage at a time, the reference's clipped matrix at row `b` and class `cc` is the specification's summand
  there: its matrix product contracts the shared axis, so the entry is the sum over `k` of the row's and the centre's
  `k`-th coordinates; the class number it compares the row's target with is the column's own number; the comparison's
  bit, read as a number, is 1 or 0; and the clip is a maximum with the lower word followed by a minimum with the upper
  one, in that order. Its total over all entries is then the specification's double sum.
-/
import proofs.«170992_j67783173866135_1_alg».proof.Proof.Gen.ReferenceIdeal.Read
import proofs.«170992_j67783173866135_1_alg».proof.Proof.Spec

noncomputable section

open Idealize.ShloMosaic Idealize.ShloMosaic.ValueIdx

namespace Cert.ReferenceIdeal.RefTotal

open Cert.ReferenceIdeal Cert.ReferenceIdeal.Read Cert.CenterLoss

/-- A comparison's bit read as an unsigned number is 1 where the words are equal and 0 elsewhere. -/
theorem mask_eq_hit (w : BitVec 32) (n : ℕ) :
    FloatOps.uitofp (F := Ideal) .f32 (IntOp.cmpi .eq w (BitVec.ofNat 32 n)) = hit w n := by
  unfold hit IntOp.cmpi
  show (((BitVec.ofBool (w == BitVec.ofNat 32 n)).toNat : ℝ) : EReal) = _
  by_cases h : w = BitVec.ofNat 32 n
  · simp [h]
  · simp [h]

/-- The clipped matrix at `(b, cc)` is the summand of the specification over the normalized arrays. -/
theorem clipped_apply (x0 : (⟨S4096x512, .f32⟩ : BufTy).Contents (Elt Ideal)) (x1 : (⟨S10000x512, .f32⟩ : BufTy).Contents (Elt Ideal))
    (x2 : (⟨S4096, .i32⟩ : BufTy).Contents (Elt Ideal)) (b : Fin 4096) (cc : Fin 10000) :
    val_main_v17 (F := Ideal) x0 x1 x2 (ix2 b cc)
      = term (val_main_v2 (F := Ideal) x0) (val_main_v5 (F := Ideal) x1) x2 b cc := by
  have el : ∀ k : Fin 512, lidx_main_v6 (ix2 b cc) k = ix2 b k := fun k => funext fun a => by
    match a with
    | ⟨0, _⟩ => rfl
    | ⟨1, _⟩ => rfl
  have er : ∀ k : Fin 512, ridx_main_v6 (ix2 b cc) k = ix2 cc k := fun k => funext fun a => by
    match a with
    | ⟨0, _⟩ => rfl
    | ⟨1, _⟩ => rfl
  have et : idx_main_v10 (idx_main_v12 (ix2 b cc)) = ix1 b := funext fun a => by
    match a with
    | ⟨0, _⟩ => rfl
  have ec : ((idx_main_v11 (idx_main_v13 (ix2 b cc))) 0).val = cc.val := rfl
  rw [val_main_v17_apply, val_main_call2_v4_apply, val_main_call2_v3_apply, val_main_cst_1_apply,
    val_main_call2_v2_apply, val_main_call2_v1_apply, val_main_call2_v0_apply, val_main_cst_0_apply,
    val_main_v16_apply, val_main_v8_apply, val_main_v7_apply, val_main_cst_apply, val_main_v6_apply,
    val_main_v15_apply, val_main_v14_apply, val_main_v12_apply, val_main_v10_apply, val_main_v13_apply,
    val_main_v11_apply, val_main_v9_apply, et, ec, mask_eq_hit]
  simp only [el, er]
  rfl

/-- The total of the clipped matrix over every entry is the specification's double sum. -/
theorem clipped_total (x0 : (⟨S4096x512, .f32⟩ : BufTy).Contents (Elt Ideal)) (x1 : (⟨S10000x512, .f32⟩ : BufTy).Contents (Elt Ideal))
    (x2 : (⟨S4096, .i32⟩ : BufTy).Contents (Elt Ideal)) :
    ∑ j : S4096x10000.Idx, val_main_v17 (F := Ideal) x0 x1 x2 j
      = total (val_main_v2 (F := Ideal) x0) (val_main_v5 (F := Ideal) x1) x2 := by
  rw [sum_idx2]
  exact Finset.sum_congr rfl fun b _ => Finset.sum_congr rfl fun cc _ => clipped_apply x0 x1 x2 b cc

end Cert.ReferenceIdeal.RefTotal

end
-- ==== Proof.Bridge.lean ====
/-
  The two programs compute one number.

  Both begin with the same lines: each input's rows divided by their Euclidean norms. So the arrays the kernel's region
  is handed are the reference's normalized arrays of the same arguments (the kernel's extra change of float format is
  the identity on extended reals, and its reshape of the targets to a column is the targets). Both end with the same
  two lines, a sum from zero over every entry and a division by 4096; the kernel's array and the reference's clipped
  matrix have the same total (the specification's double sum), hence the same quotient.
-/
import proofs.«170992_j67783173866135_1_alg».proof.Proof.KernelTotal
import proofs.«170992_j67783173866135_1_alg».proof.Proof.KernelRun
import proofs.«170992_j67783173866135_1_alg».proof.Proof.RefTotal
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.Bridge

open Cert.KernelIdeal Cert.KernelIdeal.Gen Cert.CenterLoss

variable (m : (ℓ : Loc nD τ sig) → Buf (Elt Ideal) ℓ)

/-- The features the region is handed are the reference's normalized features of the same argument. -/
theorem feat_eq (c : Dev nD) :
    Cert.KernelIdeal.Total.xnK m c = Cert.ReferenceIdeal.Read.val_main_v2 (F := Ideal) (m ((c.tc : Thread nD τ).loc main_arg0)) := by
  unfold Cert.KernelIdeal.Total.xnK
  show V m c main_v6 = _
  dsimp only [V, V0]
  simp only [hostOps0, hostOps0_1, hostOps0_2, hostOps0_3, List.flatten_cons, List.flatten_nil, List.append_nil, List.cons_append,
    List.nil_append]
  after_results
  rfl

/-- The centres the region is handed are the reference's normalized centres of the same argument. -/
theorem cent_eq (c : Dev nD) :
    Cert.KernelIdeal.Total.ynK m c = Cert.ReferenceIdeal.Read.val_main_v5 (F := Ideal) (m ((c.tc : Thread nD τ).loc main_arg1)) := by
  unfold Cert.KernelIdeal.Total.ynK
  show V m c main_v7 = _
  dsimp only [V, V0]
  simp only [hostOps0, hostOps0_1, hostOps0_2, hostOps0_3, List.flatten_cons, List.flatten_nil, List.append_nil, List.cons_append,
    List.nil_append]
  after_results
  rfl

/-- The targets the region is handed, a column, are the targets. -/
theorem targ_eq (c : Dev nD) :
    Cert.KernelIdeal.Total.tgK m c = m ((c.tc : Thread nD τ).loc main_arg2) := by
  unfold Cert.KernelIdeal.Total.tgK
  have e : (V m c main_v8 : S4096x1.Idx → BitVec 32)
      = shapeCast S4096x1 (m ((c.tc : Thread nD τ).loc main_arg2)) shapeCasts_S4096_S4096x1 := by
    dsimp only [V, V0]
    simp only [hostOps0, hostOps0_1, hostOps0_2, hostOps0_3, List.flatten_cons, List.flatten_nil, List.append_nil, List.cons_append,
      List.nil_append]
    after_results
    rfl
  funext j
  rw [e]
  exact (Cert.LibKeepdims.shapeCast_a_a1_apply (m ((c.tc : Thread nD τ).loc main_arg2)) shapeCasts_S4096_S4096x1 (j 0) (0 : Fin 1)).trans
    (congrArg (m ((c.tc : Thread nD τ).loc main_arg2)) (eq_ix1 j).symm)

/-- The program's last two lines over an array, at the extended reals: the array's total from the zero word, divided by
    the word of 4096. -/
theorem lossOf_apply (A : S8x1x128.Idx → EReal) (i : S_.Idx) :
    Cert.KernelIdeal.KernelRun.lossOf (F := Ideal) A i
      = FloatOps.hostDivf (F := Ideal) (φ := .f32) (Ideal.ofBits .f32 0x00000000#32 + ∑ j : S8x1x128.Idx, A j) (Ideal.ofBits .f32 0x45800000#32) := by
  unfold Cert.KernelIdeal.KernelRun.lossOf
  show FloatOps.hostDivf (F := Ideal) (φ := .f32) (Host.reduceAdd A (constant S_ .f32 0x00000000#32) reducesTo_S8x1x128_S_d0_1_2 h_S_ i) _ = _
  refine congrArg (fun z => FloatOps.hostDivf (F := Ideal) (φ := .f32) z (Ideal.ofBits .f32 0x45800000#32)) ?_
  simp only [Host.reduceAdd, Ideal.hostReduceAdd_def]
  exact Ideal.hostReduceAdd_total reducesTo_S8x1x128_S_d0_1_2 (fun b => b.elim0) A _ i

/-- The kernel's result is the reference's result of the same arguments. -/
theorem result_eq (c : Dev nD) :
    Cert.KernelIdeal.KernelRun.lossOf (F := Ideal) (Cert.KernelIdeal.Region.outArr m c)
      = Cert.ReferenceIdeal.Read.val_main_v19 (F := Ideal) (m ((c.tc : Thread nD τ).loc main_arg0))
          (m ((c.tc : Thread nD τ).loc main_arg1)) (m ((c.tc : Thread nD τ).loc main_arg2)) := by
  funext i
  rw [lossOf_apply, Cert.KernelIdeal.Total.kernel_total, feat_eq, cent_eq, targ_eq,
    Cert.ReferenceIdeal.Read.val_main_v19_apply, Cert.ReferenceIdeal.Read.val_main_v18_apply,
    Cert.ReferenceIdeal.RefTotal.clipped_total]
  rfl

end Cert.Bridge

end
-- ==== Proof.lean ====
/-
  A centre loss with cosine distance: the kernel against its reference, at the extended reals.

  Both programs divide each of the 4096 feature rows and each of the 10000 class centres by its Euclidean norm, take
  one minus the inner product of every row with every centre, keep that distance only where the centre's number is the
  row's target class (0 elsewhere), clip into [LO, HI] by a maximum with LO followed by a minimum with HI, add up all
  4096 × 10000 clipped values from zero and divide by 4096. The reference does so with one matrix product and one sum.
  The kernel walks a grid of 8 row blocks (512 rows) by 5 column blocks (2000 classes): at each point it forms the
  512 × 2000 block of clipped values from the point's blocks and adds its total into a carried cell that is zeroed at a
  row block's first point; at the row block's last point it writes the cell into lane 0 of the row block's output row,
  zeros in the other 127 lanes; afterwards the 8 × 1 × 128 output is summed from zero and divided by 4096.

  On the extended reals a change of float format is the identity and a sum may be regrouped freely (+ is commutative and
  associative there, with ⊤ + ⊥ = ⊥), and adding the zero lanes and the zero starts changes nothing; so the kernel's
  eight row values add up to the reference's double sum, and the two quotients are one number. The same float words
  LO, HI, 1 and 4096 stand on both sides and are never evaluated. No finiteness of the inputs is used: no distributive or
  cancellation law enters. The ideal pass rewrote nothing in the kernel, so its idealization claim is trivial. The three
  runs terminate without fault and leave the arguments as they were: for the two kernel programs by the generated frame
  run, for the reference by its generated run.

  Modules: Spec (the double sum both sides are proved to be), SumRegroup (the regrouping law), RefTotal (the
  reference's clipped matrix, entry by entry), Payloads (the kernel body's two stored values at an index), Pieces (what
  each case of the body leaves in the cell and the output row), Fold (the cell over a row block), Blocks (where a
  point's blocks sit in the arrays), Region (the output array after the run), KernelRun (the result through the two
  closing lines), KernelTotal (the output array's total is the double sum), Bridge (the shared first lines, and the
  two results equal).
-/
import proofs.«170992_j67783173866135_1_alg».proof.Defs
import proofs.«170992_j67783173866135_1_alg».proof.Proof.Gen.Kernel
import proofs.«170992_j67783173866135_1_alg».proof.Proof.Gen.Kernel.Skeleton
import proofs.«170992_j67783173866135_1_alg».proof.Proof.Gen.Kernel.Launch
import proofs.«170992_j67783173866135_1_alg».proof.Proof.Gen.Kernel.Points
import proofs.«170992_j67783173866135_1_alg».proof.Proof.Gen.Kernel.Frame
import proofs.«170992_j67783173866135_1_alg».proof.Proof.Gen.KernelIdeal
import proofs.«170992_j67783173866135_1_alg».proof.Proof.Gen.KernelIdeal.Skeleton
import proofs.«170992_j67783173866135_1_alg».proof.Proof.Gen.KernelIdeal.Launch
import proofs.«170992_j67783173866135_1_alg».proof.Proof.Gen.KernelIdeal.Points
import proofs.«170992_j67783173866135_1_alg».proof.Proof.Gen.KernelIdeal.Frame
import proofs.«170992_j67783173866135_1_alg».proof.Proof.Gen.ReferenceIdeal
import proofs.«170992_j67783173866135_1_alg».proof.Proof.Gen.ReferenceIdeal.Run
import proofs.«170992_j67783173866135_1_alg».proof.Proof.Gen.ReferenceIdeal.Read
import proofs.«170992_j67783173866135_1_alg».proof.Proof.Gen.Pre_finite_inputs
import proofs.«170992_j67783173866135_1_alg».proof.Proof.Bridge
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to restate. -/
theorem preserves : Cert.preserves_Kernel_KernelIdeal := trivial

/-- From memories that agree on the three arguments the kernel ends at the quotient of its output array's total and the
    reference at the quotient of its clipped matrix's total: one number, since the two totals are the same double sum. -/
theorem algebraic : Cert.algebraic_KernelIdeal_ReferenceIdeal := by
  intro m ρ m' ρ' _ hagree
  refine ⟨fun c => Cert.KernelIdeal.KernelRun.lossOf (F := Ideal) (Cert.KernelIdeal.Region.outArr m c),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v19_eq]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
